-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000x16 : Shape := ⟨2, ![1600000, 16]⟩
abbrev S2x1600000 : Shape := ⟨2, ![2, 1600000]⟩
abbrev S100000 : Shape := ⟨1, ![100000]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S100000x512 .f32) (main_arg1 : FVec F S1600000x16 .f32) (main_arg2 : IVec S2x1600000 32) (main_arg3 : IVec S100000 32) (main_arg4 : FVec F S512x512 .f32) (main_arg5 : FVec F S512 .f32) (main_arg6 : FVec F S512 .f32) (main_arg7 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S100000x512 : Shape := ⟨2, ![100000, 512]⟩
abbrev S1600000x16 : Shape := ⟨2, ![1600000, 16]⟩
abbrev S2x1600000 : Shape := ⟨2, ![2, 1600000]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S2000x512 : Shape := ⟨2, ![2000, 512]⟩
abbrev S2000 : Shape := ⟨1, ![2000]⟩
abbrev S2000x1 : Shape := ⟨2, ![2000, 1]⟩

abbrev nBuf : Space → Nat
  | .hbm => 14
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S1600000x16, .f32⟩
  | .hbm, ⟨2, _⟩ => ⟨S2x1600000, .i32⟩
  | .hbm, ⟨3, _⟩ => ⟨S100000, .i32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S100000x512.size a
  hwx0_5 : ∀ i : grid0.Coords, EltTy.bits .f32 = 32 ∨ (Rect.block (s := S100000x512) S2000x512.size (cc0_transform_5 i) (hinb0_5 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S1600000x16 : Shape := ⟨2, ![1600000, 16]⟩
abbrev S2x1600000 : Shape := ⟨2, ![2, 1600000]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S_ : Shape := ⟨0, ![]⟩
abbrev S100000x1 : Shape := ⟨2, ![100000, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000x16, .f32⟩
  | .hbm, ⟨2, _⟩ => ⟨S2x1600000, .i32⟩
  | .hbm, ⟨3, _⟩ => ⟨S100000, .i32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S100000x512, .f32⟩
  | .hbm, ⟨9, _⟩ => ⟨S1x512, .f32⟩
  | .hbm, ⟨10, _⟩ => ⟨S100000x512, .f32⟩
  | .hbm, ⟨11, _⟩ => ⟨S100000x512, .f32⟩
  | .hbm, ⟨12, _⟩ => ⟨S_, .f32⟩
  | .hbm, ⟨13, _⟩ => ⟨S100000, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S100000x512, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x512, .f32⟩
  | .hbm, ⟨28, _⟩ => ⟨S100000x512, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S100000x1, .f32⟩
  | .hbm, ⟨33, _⟩ => ⟨S100000x512, .f32⟩
  | .hbm, ⟨34, _⟩ => ⟨S100000x512, .f32⟩
  | .hbm, ⟨35, _⟩ => ⟨S1x512, .f32⟩
  | .hbm, ⟨36, _⟩ => ⟨S100000x512, .f32⟩
  | .hbm, ⟨37, _⟩ => ⟨S100000x512, .f32⟩
  | .hbm, ⟨38, _⟩ => ⟨S1x512, .f32⟩
  | .hbm, ⟨39, _⟩ => ⟨S100000x512, .f32⟩
  | .hbm, ⟨40, _⟩ => ⟨S100000x512, .f32⟩
  | .hbm, ⟨41, _⟩ => ⟨S_, .f32⟩
  | .hbm, ⟨42, _⟩ => ⟨S100000x512, .f32⟩
  | .hbm, ⟨43, _⟩ => ⟨S100000x512, .i1⟩
  | .hbm, ⟨44, _⟩ => ⟨S_, .f32⟩
  | .hbm, ⟨45, _⟩ => ⟨S100000x512, .f32⟩
  | .hbm, ⟨46, _⟩ => ⟨S100000x512, .f32⟩
  | .hbm, ⟨47, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  dot_S100000x512_S512x512_S100000x512_1_1_0_0_n_n_wf : DotDims.WF S100000x512 S512x512 S100000x512 [1] [1] [0] [0] [] []

variable [Facts₀]

def dot_S100000x512_S512x512_S100000x512_1_1_0_0_n_n : DotDims S100000x512 S512x512 S100000x512 where
  lhsContracting := [1]
  rhsContracting := [1]
  lhsNonContracting := [0]
  rhsNonContracting := [0]
  lhsBatch := []
  rhsBatch := []
  wf := dot_S100000x512_S512x512_S100000x512_1_1_0_0_n_n_wf

class Facts : Prop extends Facts₀ where

variable [Facts]
-- ==== Proof.Spec.lean ====
/-
  The layer both programs compute, stated once over the extended reals.

  A node's 512 features are mapped by a dense layer, `y o = (∑ k, x k * w o k) + b o`; the row `y` is then
  normalised over its 512 entries — the mean `μ = (∑ j, y j) / 512`, the variance `σ = (∑ j, (y j - μ)²) / 512`
  of the centred row, `z o = (y o - μ) * rsqrt (σ + ε) * γ o + β o` — and passed through the leaky rectifier
  `z ↦ if z ≥ 0 then z else 0.2 * z`. Every row is treated alone: entry `(r, o)` of the result depends on row `r`
  of the input only, on the whole weight matrix and on the three parameter vectors.

  The four float literals (0, 512, ε, the slope) are kept as the words both programs print; none of them is ever
  evaluated, since the two sides carry the same word at the same place. Division, the reciprocal square root and the
  comparison are the extended reals' (`Ideal.div`, `Ideal.rsqrt`, `Ideal.cmp`).
-/
import Idealize.ShloMosaic.PureOps.Ideal
import Idealize.ShloMosaic.Lib.ValueIdx

noncomputable section

open scoped BigOperators

namespace Cert.Layer

open Idealize.ShloMosaic Idealize.ShloMosaic.ValueIdx

/-- The literal `0.0`. -/
abbrev litZero : EReal := Ideal.ofBits .f32 0x00000000#32
/-- The literal `512.0`, the row's length. -/
abbrev litWidth : EReal := Ideal.ofBits .f32 0x44000000#32
/-- The literal ε the variance is shifted by. -/
abbrev litEps : EReal := Ideal.ofBits .f32 0x3727C5AC#32
/-- The literal slope of the rectifier's negative branch. -/
abbrev litSlope : EReal := Ideal.ofBits .f32 0x3E4CCCCD#32

/-- The dense layer on one row: feature `o` of the image of `x` under the weights `w` (row `o` of `w` against `x`) and bias `b`. -/
def dense (x : Fin 512 → EReal) (w : Fin 512 → Fin 512 → EReal) (b : Fin 512 → EReal) (o : Fin 512) : EReal :=
  (∑ k : Fin 512, x k * w o k) + b o

/-- The mean of a row. -/
def rowMean (y : Fin 512 → EReal) : EReal := Ideal.div (∑ j : Fin 512, y j) litWidth

/-- The mean of the squares of the centred row. -/
def rowVar (y : Fin 512 → EReal) : EReal :=
  Ideal.div (∑ j : Fin 512, (y j - rowMean y) * (y j - rowMean y)) litWidth

/-- The normalised row, scaled by `γ` and shifted by `β`. -/
def normed (y γ β : Fin 512 → EReal) (o : Fin 512) : EReal :=
  (y o - rowMean y) * Ideal.rsqrt (rowVar y + litEps) * γ o + β o

/-- The leaky rectifier. -/
def leaky (z : EReal) : EReal := Scalar.select (Ideal.cmp .oge z litZero) z (litSlope * z)

/-- One entry of the result from the row of pre-activations it sits in. -/
def rowOut (y γ β : Fin 512 → EReal) (o : Fin 512) : EReal := leaky (normed y γ β o)

/-- Entry `(r, o)` of the layer's result, from the argument arrays. -/
def layerAt (X : FVec Ideal ⟨2, ![100000, 512]⟩ .f32) (W : FVec Ideal ⟨2, ![512, 512]⟩ .f32)
    (b γ β : FVec Ideal ⟨1, ![512]⟩ .f32) (r : Fin 100000) (o : Fin 512) : EReal :=
  rowOut (dense (fun k => X (ix2 r k)) (fun o' k => W (ix2 o' k)) (fun o' => b (ix1 o')))
    (fun o' => γ (ix1 o')) (fun o' => β (ix1 o')) o

/-- The layer's result as one array. -/
def layer (X : FVec Ideal ⟨2, ![100000, 512]⟩ .f32) (W : FVec Ideal ⟨2, ![512, 512]⟩ .f32)
    (b γ β : FVec Ideal ⟨1, ![512]⟩ .f32) : FVec Ideal ⟨2, ![100000, 512]⟩ .f32 :=
  fun i => layerAt X W b γ β ⟨(i 0).val, idx2_lt0 i⟩ ⟨(i 1).val, idx2_lt1 i⟩

/-- At an index given by its coordinates the array reads the entry. -/
theorem layer_ix2 (X : FVec Ideal ⟨2, ![100000, 512]⟩ .f32) (W : FVec Ideal ⟨2, ![512, 512]⟩ .f32)
    (b γ β : FVec Ideal ⟨1, ![512]⟩ .f32) (r : Fin 100000) (o : Fin 512) :
    layer X W b γ β (ix2 r o) = layerAt X W b γ β r o := rfl

end Cert.Layer

end
-- ==== Proof.RefLayer.lean ====
/-
  The reference program computes the layer of Spec.lean.

  Its host operations are read one at a time at an index given by coordinates (r, o): the matrix product with the second
  operand contracted along its second axis is `∑ k, X (r, k) * W (o, k)`; each sum over the feature axis is its initial
  value, the literal zero, plus the sum over that axis; every broadcast reads its operand at the coordinates it keeps, so
  that a row statistic stored at (r, 0) is read back at every (r, o). Stage by stage this gives the row of
  pre-activations, its mean, the centred row, its variance, the normalised row and the rectified result.
-/
import proofs.«128015_j5342939316926_2_alg».proof.Proof.Gen.ReferenceIdeal.Read
import proofs.«128015_j5342939316926_2_alg».proof.Proof.Spec
import Idealize.ShloMosaic.PureOps.Ideal.Laws

noncomputable section

open scoped BigOperators

namespace Cert.ReferenceIdeal.RefLayer

open Cert.ReferenceIdeal Cert.ReferenceIdeal.Gen Cert.ReferenceIdeal.Read Idealize.ShloMosaic Idealize.ShloMosaic.ValueIdx
open Cert.Layer

variable (X : (⟨S100000x512, .f32⟩ : BufTy).Contents (Elt Ideal)) (W : (⟨S512x512, .f32⟩ : BufTy).Contents (Elt Ideal))
variable (b γ β : (⟨S512, .f32⟩ : BufTy).Contents (Elt Ideal))

/-- Row `r` of pre-activations, as the specification's dense layer of row `r` of `X`. -/
abbrev preRow (r : Fin 100000) : Fin 512 → EReal :=
  dense (fun k => X (ix2 r k)) (fun o' k => W (ix2 o' k)) (fun o' => b (ix1 o'))

/-- The product plus the bias, at (r, o). -/
theorem pre_at (r : Fin 100000) (o : Fin 512) : val_main_v3 (F := Ideal) X W b (ix2 r o) = preRow X W b r o := by
  rw [val_main_v3_apply, val_main_v0_apply, val_main_v2_apply, val_main_v1_apply]
  have e1 : ∀ k : Fin 512, lidx_main_v0 (ix2 r o) k = ix2 r k := fun k =>
    funext fun a => Fin.ext (by match a with | ⟨0, _⟩ => rfl | ⟨1, _⟩ => rfl)
  have e2 : ∀ k : Fin 512, ridx_main_v0 (ix2 r o) k = ix2 o k := fun k =>
    funext fun a => Fin.ext (by match a with | ⟨0, _⟩ => rfl | ⟨1, _⟩ => rfl)
  have e3 : idx_main_v1 (idx_main_v2 (ix2 r o)) = ix1 o :=
    funext fun a => Fin.ext (by match a with | ⟨0, _⟩ => rfl)
  simp only [e1, e2, e3]
  rfl

/-- The row's mean, stored at (r, 0). -/
theorem mean_at (r : Fin 100000) (u : Fin 1) :
    val_main_v7 (F := Ideal) X W b (ix2 r u) = rowMean (preRow X W b r) := by
  rw [val_main_v7_apply, val_main_v5_apply, val_main_v4_apply, val_main_v6_apply, val_main_cst_0_apply, val_main_cst_apply]
  have e : ∀ k : Fin 512, idx_main_v4 (idx_main_v5 (ix2 r u)) k = ix2 r k := fun k =>
    funext fun a => Fin.ext (by match a with | ⟨0, _⟩ => rfl | ⟨1, _⟩ => rfl)
  simp only [e, pre_at]
  show Ideal.div (Ideal.ofBits .f32 0x00000000#32 + _) _ = _
  rw [Ideal.ofBits_zero_f32, zero_add]
  rfl

/-- The centred row at (r, o), as the first subtraction writes it. -/
theorem centred_at (r : Fin 100000) (o : Fin 512) :
    val_main_v9 (F := Ideal) X W b (ix2 r o) = preRow X W b r o - rowMean (preRow X W b r) := by
  rw [val_main_v9_apply, val_main_v8_apply, pre_at]
  have e : idx_main_v8 (ix2 r o) = ix2 r (0 : Fin 1) :=
    funext fun a => Fin.ext (by match a with | ⟨0, _⟩ => rfl | ⟨1, _⟩ => rfl)
  rw [e, mean_at]
  rfl

/-- The centred row at (r, o), as the second subtraction writes it. -/
theorem centred_at' (r : Fin 100000) (o : Fin 512) :
    val_main_v16 (F := Ideal) X W b (ix2 r o) = preRow X W b r o - rowMean (preRow X W b r) := by
  rw [val_main_v16_apply, val_main_v15_apply, pre_at]
  have e : idx_main_v15 (ix2 r o) = ix2 r (0 : Fin 1) :=
    funext fun a => Fin.ext (by match a with | ⟨0, _⟩ => rfl | ⟨1, _⟩ => rfl)
  rw [e, mean_at]
  rfl

/-- The row's variance, stored at (r, 0). -/
theorem var_at (r : Fin 100000) (u : Fin 1) :
    val_main_v14 (F := Ideal) X W b (ix2 r u) = rowVar (preRow X W b r) := by
  rw [val_main_v14_apply, val_main_v12_apply, val_main_v11_apply, val_main_v13_apply, val_main_cst_2_apply, val_main_cst_1_apply]
  have e : ∀ k : Fin 512, idx_main_v11 (idx_main_v12 (ix2 r u)) k = ix2 r k := fun k =>
    funext fun a => Fin.ext (by match a with | ⟨0, _⟩ => rfl | ⟨1, _⟩ => rfl)
  simp only [e, val_main_v10_apply, centred_at]
  show Ideal.div (Ideal.ofBits .f32 0x00000000#32 + _) _ = _
  rw [Ideal.ofBits_zero_f32, zero_add]
  rfl

/-- The normalised, scaled and shifted row at (r, o). -/
theorem normed_at (r : Fin 100000) (o : Fin 512) :
    val_main_v27 (F := Ideal) X W b γ β (ix2 r o)
      = normed (preRow X W b r) (fun o' => γ (ix1 o')) (fun o' => β (ix1 o')) o := by
  rw [val_main_v27_apply, val_main_v24_apply, val_main_v21_apply, centred_at', val_main_v20_apply, val_main_v19_apply,
    val_main_v18_apply, val_main_v17_apply, val_main_cst_3_apply, val_main_v23_apply, val_main_v22_apply,
    val_main_v26_apply, val_main_v25_apply]
  have e1 : idx_main_v20 (ix2 r o) = ix2 r (0 : Fin 1) :=
    funext fun a => Fin.ext (by match a with | ⟨0, _⟩ => rfl | ⟨1, _⟩ => rfl)
  have e2 : idx_main_v22 (idx_main_v23 (ix2 r o)) = ix1 o :=
    funext fun a => Fin.ext (by match a with | ⟨0, _⟩ => rfl)
  have e3 : idx_main_v25 (idx_main_v26 (ix2 r o)) = ix1 o :=
    funext fun a => Fin.ext (by match a with | ⟨0, _⟩ => rfl)
  rw [e1, e2, e3, var_at]
  rfl

/-- The rectified result at (r, o) is the layer's entry. -/
theorem result_at (r : Fin 100000) (o : Fin 512) :
    val_main_v32 (F := Ideal) X W b γ β (ix2 r o) = layerAt X W b γ β r o := by
  rw [val_main_v32_apply, val_main_v29_apply, val_main_v31_apply, val_main_v28_apply, val_main_v30_apply,
    val_main_cst_4_apply, val_main_cst_5_apply, normed_at]
  rfl

/-- The reference's last stage is the layer, as one array. -/
theorem result_eq : val_main_v32 (F := Ideal) X W b γ β = layer X W b γ β := by
  funext i
  obtain ⟨r, o, rfl⟩ : ∃ (r : Fin 100000) (o : Fin 512), i = ix2 r o := ⟨i 0, i 1, eq_ix2 i⟩
  rw [layer_ix2]
  exact result_at X W b γ β r o

end Cert.ReferenceIdeal.RefLayer

end
-- ==== Proof.Block.lean ====
/-
  One block of the kernel: what the body stores at (p, q) is the layer's row function of row p of the block of inputs.

  The body multiplies its 2000 × 512 block of inputs by the staged 512 × 512 matrix (whose entry (k, o) is the weight of
  input feature k in output feature o), adds the bias row, and normalises each of the 2000 rows by itself: the two sums
  over the feature axis are taken row by row and kept as a 2000 × 1 column that is broadcast back over the row. Changes of
  float format are the identity on the extended reals. So entry (p, q) is `rowOut` of the dense image of row p.
-/
import proofs.«128015_j5342939316926_2_alg».proof.Proof.Gen.KernelIdeal.Skeleton
import proofs.«128015_j5342939316926_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx
open Cert.Layer

/-! ## The non-pointwise operations of the body, each read at an index given by coordinates -/

/-- The product's left operand is read at the output's row … -/
theorem lhs_row (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl
/-- … and the contracted coordinate; -/
theorem lhs_contr (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
/-- the right operand at the contracted coordinate … -/
theorem rhs_contr (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
/-- … and the output's column. -/
theorem rhs_col (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

/-- The matrix unit's product into a zero accumulator, at (p, o): row p of the left operand against column o of the right. -/
theorem matmul_at (x0 : FVec Ideal S2000x512 .f32) (x1 : FVec Ideal S512x512 .bf16) (p : Fin 2000) (o : Fin 512) :
    matmul dot_S2000x512_S512x512_S2000x512_1_0_0_1_n_n none (truncf .bf16 x0 bitsLt_bf16_f32)
        (shapeCast S512x512 x1 shapeCasts_S512x512_S512x512) (constant S2000x512 .f32 0x00000000#32) (ix2 p o)
      = ∑ k : Fin 512, x0 (ix2 p k) * x1 (ix2 k o) := by
  rw [shapeCast_self]
  simp only [matmul]
  rw [Ideal.matmul_constant_zero_apply,
    ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p o) ((contrEquiv1 dot_S2000x512_S512x512_S2000x512_1_0_0_1_n_n 512 rfl rfl).symm k) = ix2 p k :=
    funext fun a => Fin.ext (by
      match a with
      | ⟨0, _⟩ => exact lhs_row _ _
      | ⟨1, _⟩ => exact (lhs_contr _ _).trans hk)
  have er : dot_S2000x512_S512x512_S2000x512_1_0_0_1_n_n.rhsIdx (ix2 p o) ((contrEquiv1 dot_S2000x512_S512x512_S2000x512_1_0_0_1_n_n 512 rfl rfl).symm k) = ix2 k o :=
    funext fun a => Fin.ext (by
      match a with
      | ⟨0, _⟩ => exact (rhs_contr _ _).trans hk
      | ⟨1, _⟩ => exact rhs_col _ _)
  rw [el, er]
  rfl

/-- A parameter row broadcast over the 2000 rows, at (p, o): the row's entry o. -/
theorem rowBroadcast_at (v : FVec Ideal S1x512 .f32) (p : Fin 2000) (o : Fin 512) :
    broadcastTo S2000x512 (shapeCast S1x512 v shapeCasts_S1x512_S1x512) broadcasts_S1x512_S2000x512 (ix2 p o)
      = v (ix2 (0 : Fin 1) o) := by
  rw [shapeCast_self]
  exact broadcastTo_1b_ab_apply v broadcasts_S1x512_S2000x512 p o

/-- The sum over the feature axis kept as a column, at (p, u): the sum of row p. -/
theorem rowSum_at (y : FVec Ideal S2000x512 .f32) (hφ : FTy.f32 = FTy.f32 ∨ FTy.f32 = FTy.bf16)
    (hacc : (0x00000000#32 : BitVec 32) = 0x00000000#32) (p : Fin 2000) (u : Fin 1) :
    shapeCast S2000x1 (multiReduction .add [1] S2000 y 0x00000000#32 reduces_S2000x512_S2000 hφ hacc)
        shapeCasts_S2000_S2000x1 (ix2 p u)
      = ∑ j : Fin 512, y (ix2 p j) := by
  refine (shapeCast_apply _ shapeCasts_S2000_S2000x1 (ix2 p u) (ix1 p) (by
    rw [Shape.rowMajor_val_one, Shape.rowMajor_val_two]
    show p.val = p.val * 1 + u.val
    omega)).trans ?_
  refine (Ideal.multiReduction_add_single y 0x00000000#32 reduces_S2000x512_S2000 hφ hacc (ix1 p)).trans ?_
  refine Finset.sum_congr rfl fun j _ => ?_
  exact congrArg y (funext fun a => Fin.ext (by match a with | ⟨0, _⟩ => rfl | ⟨1, _⟩ => rfl))

/-- A column broadcast over the 512 features, at (p, q): the column's entry p. -/
theorem colBroadcast_at (col : FVec Ideal S2000x1 .f32) (p : Fin 2000) (q : Fin 512) :
    broadcastTo S2000x512 col broadcasts_S2000x1_S2000x512 (ix2 p q) = col (ix2 p (0 : Fin 1)) := by
  refine broadcastTo_apply col broadcasts_S2000x1_S2000x512 (ix2 p q) (ix2 p (0 : Fin 1)) fun a => ?_
  match a with
  | ⟨0, _⟩ => show p.val = if (2000 : Nat) = 1 then 0 else p.val; rw [if_neg (by decide)]
  | ⟨1, _⟩ => show 0 = if (1 : Nat) = 1 then 0 else q.val; rw [if_pos rfl]

/-! ## The body's value at (p, q) -/

/-- The reciprocal square root of a vector, at an index. -/
theorem rsqrt_at {s : Shape} {φ : FTy} (v : FVec Ideal s φ) (i : s.Idx) : rsqrt v i = Ideal.rsqrt (v i) := rfl

/-- WHAT THE BODY STORES at (p, q), from the blocks it loads: the layer's row function of the dense image of row p of the
    input block, the staged matrix read as (input feature, output feature), the three parameter rows read at their one row. -/
theorem payload_at (x0 : FVec Ideal S2000x512 .f32) (x1 : FVec Ideal S512x512 .bf16) (x5 x25 x29 : FVec Ideal S1x512 .f32)
    (p : Fin 2000) (q : Fin 512) :
    k0_pay1 (F := Ideal) x0 x1 x5 x25 x29 (ix2 p q)
      = rowOut (dense (fun k => x0 (ix2 p k)) (fun o k => x1 (ix2 k o)) (fun o => x5 (ix2 (0 : Fin 1) o)))
          (fun o => x25 (ix2 (0 : Fin 1) o)) (fun o => x29 (ix2 (0 : Fin 1) o)) q := by
  unfold k0_pay1
  -- the pointwise operations and the broadcasts, read at the index; then the three row sums, outermost first (the
  -- mean's sum occurs again inside the variance's, under that sum's binder)
  simp only [select_apply, cmpf_apply, mulf_apply, addf_apply, subf_apply, divf_apply, broadcast_apply, rsqrt_at,
    colBroadcast_at, rowBroadcast_at, matmul_at]
  rw [rowSum_at]
  simp only [mulf_apply, addf_apply, subf_apply, divf_apply, broadcast_apply, colBroadcast_at, rowBroadcast_at, matmul_at]
  rw [rowSum_at]
  simp only [mulf_apply, addf_apply, subf_apply, divf_apply, broadcast_apply, colBroadcast_at, rowBroadcast_at, matmul_at]
  rw [rowSum_at]
  simp only [addf_apply, rowBroadcast_at, matmul_at]
  simp only [rowOut, leaky, normed, rowVar, rowMean, dense]
  rfl

end Cert.KernelIdeal.Block

end
-- ==== Proof.Whole.lean ====
/-
  From blocks to the whole array: the kernel's result is the layer of Spec.lean.

  Grid point t stages rows 2000 t … 2000 t + 1999 of the input, the whole transposed weight matrix and the three parameter
  rows, and writes back rows 2000 t … 2000 t + 1999 of the result. The staged matrix is the host's transpose of the weights
  (a change of float format is the identity), so its entry (k, o) is the weight W (o, k); the parameter rows are the
  host's reshapes of the three vectors to one row. With the body's value at (p, q) this makes what point t writes back
  the block of the layer's array at those rows; the fifty blocks cover the array, so the array ends holding the layer.
-/
import proofs.«128015_j5342939316926_2_alg».proof.Proof.Gen.KernelIdeal.Value
import proofs.«128015_j5342939316926_2_alg».proof.Proof.Block
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Layer Cert.KernelIdeal.Block

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the input and the result move one block of rows per point, the other windows
    stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The arrays the host writes before the region -/

/-- The staged matrix: the weights transposed. -/
theorem V_weights (c : Dev nD) :
    @Eq (FVec Ideal S512x512 .bf16) (V m c main_v1)
      (truncf .bf16 (transpose S512x512 [1, 0] (m ((c : Thread nD τ).loc main_arg4)) transposes_S512x512_S512x512_1_0) bitsLt_bf16_f32) := by
  dsimp only [Gen.V, Gen.hostOps0]
  after_results

/-- The bias staged as one row. -/
theorem V_bias (c : Dev nD) :
    @Eq (FVec Ideal S1x512 .f32) (V m c main_v2)
      (shapeCast S1x512 (m ((c : Thread nD τ).loc main_arg5)) shapeCasts_S512_S1x512) := by
  dsimp only [Gen.V, Gen.hostOps0]
  after_results
  rfl

/-- The scale staged as one row. -/
theorem V_scale (c : Dev nD) :
    @Eq (FVec Ideal S1x512 .f32) (V m c main_v3)
      (shapeCast S1x512 (m ((c : Thread nD τ).loc main_arg6)) shapeCasts_S512_S1x512) := by
  dsimp only [Gen.V, Gen.hostOps0]
  after_results
  rfl

/-- The shift staged as one row. -/
theorem V_shift (c : Dev nD) :
    @Eq (FVec Ideal S1x512 .f32) (V m c main_v4)
      (shapeCast S1x512 (m ((c : Thread nD τ).loc main_arg7)) shapeCasts_S512_S1x512) := by
  dsimp only [Gen.V, Gen.hostOps0]
  after_results
  rfl

/-! ## Each window's block at a point, read at coordinates -/

/-- The array's row that row p of point t's block is. -/
def rowOf (t : Fin cfg0.N) (p : Fin 2000) : Fin 100000 :=
  ⟨2000 * t.val + p.val, by have hN : cfg0.N = 50 := N_0; have := t.isLt; have := p.isLt; omega⟩

/-- The input block at point t is rows 2000 t … of the input. -/
theorem input_at (c : Dev nD) (t : Fin cfg0.N) (p : Fin 2000) (k : Fin 512) :
    (iblk m c 0 t : FVec Ideal S2000x512 .f32) (ix2 p k)
      = (m ((c : Thread nD τ).loc main_arg0) : FVec Ideal S100000x512 .f32) (ix2 (rowOf t p) k) := by
  obtain ⟨h0, h1, -⟩ := idx_facts t
  unfold iblk
  rw [View.read_apply]
  show V m c main_arg0 _ = _
  rw [V_main_arg0]
  refine congrArg (m ((c : Thread nD τ).loc main_arg0) : S100000x512.Idx → EReal) (funext fun a => Fin.ext ?_)
  match a with
  | ⟨0, _⟩ => show win0_0.index t (0 : Fin 2) * 2000 + 1 * p.val = 2000 * t.val + p.val; rw [h0]; omega
  | ⟨1, _⟩ => show win0_0.index t (1 : Fin 2) * 512 + 1 * k.val = k.val; rw [h1]; omega

/-- The staged matrix at (k, o) is the weight W (o, k), at every point. -/
theorem weights_at (c : Dev nD) (t : Fin cfg0.N) (k o : Fin 512) :
    (iblk m c 1 t : FVec Ideal S512x512 .bf16) (ix2 k o)
      = (m ((c : Thread nD τ).loc main_arg4) : FVec Ideal S512x512 .f32) (ix2 o k) := by
  obtain ⟨-, -, h0, h1, -⟩ := idx_facts t
  unfold iblk
  rw [View.read_apply]
  show V m c main_v1 _ = _
  rw [V_weights]
  have e : ((cfg0.win 1).blk t).view.emb (ix2 k o) = (ix2 k o : S512x512.Idx) := funext fun a => Fin.ext (by
    match a with
    | ⟨0, _⟩ => show win0_1.index t (0 : Fin 2) * 512 + 1 * k.val = k.val; rw [h0]; omega
    | ⟨1, _⟩ => show win0_1.index t (1 : Fin 2) * 512 + 1 * o.val = o.val; rw [h1]; omega)
  rw [e]
  exact transpose_ix2_apply (m ((c : Thread nD τ).loc main_arg4)) transposes_S512x512_S512x512_1_0 k o

/-- The staged bias row at (0, o) is the bias at o. -/
theorem bias_at (c : Dev nD) (t : Fin cfg0.N) (o : Fin 512) :
    (iblk m c 2 t : FVec Ideal S1x512 .f32) (ix2 (0 : Fin 1) o)
      = (m ((c : Thread nD τ).loc main_arg5) : FVec Ideal S512 .f32) (ix1 o) := by
  obtain ⟨-, -, -, -, h0, h1, -⟩ := idx_facts t
  unfold iblk
  rw [View.read_apply]
  show V m c main_v2 _ = _
  rw [V_bias]
  have e : ((cfg0.win 2).blk t).view.emb (ix2 (0 : Fin 1) o) = (ix2 (0 : Fin 1) o : S1x512.Idx) := funext fun a => Fin.ext (by
    match a with
    | ⟨0, _⟩ => show win0_2.index t (0 : Fin 2) * 1 + 1 * 0 = 0; rw [h0]
    | ⟨1, _⟩ => show win0_2.index t (1 : Fin 2) * 512 + 1 * o.val = o.val; rw [h1]; omega)
  rw [e]
  exact shapeCast_a_1a_apply (m ((c : Thread nD τ).loc main_arg5)) shapeCasts_S512_S1x512 0 o

/-- The staged scale row at (0, o) is the scale at o. -/
theorem scale_at (c : Dev nD) (t : Fin cfg0.N) (o : Fin 512) :
    (iblk m c 3 t : FVec Ideal S1x512 .f32) (ix2 (0 : Fin 1) o)
      = (m ((c : Thread nD τ).loc main_arg6) : FVec Ideal S512 .f32) (ix1 o) := by
  obtain ⟨-, -, -, -, -, -, h0, h1, -⟩ := idx_facts t
  unfold iblk
  rw [View.read_apply]
  show V m c main_v3 _ = _
  rw [V_scale]
  have e : ((cfg0.win 3).blk t).view.emb (ix2 (0 : Fin 1) o) = (ix2 (0 : Fin 1) o : S1x512.Idx) := funext fun a => Fin.ext (by
    match a with
    | ⟨0, _⟩ => show win0_3.index t (0 : Fin 2) * 1 + 1 * 0 = 0; rw [h0]
    | ⟨1, _⟩ => show win0_3.index t (1 : Fin 2) * 512 + 1 * o.val = o.val; rw [h1]; omega)
  rw [e]
  exact shapeCast_a_1a_apply (m ((c : Thread nD τ).loc main_arg6)) shapeCasts_S512_S1x512 0 o

/-- The staged shift row at (0, o) is the shift at o. -/
theorem shift_at (c : Dev nD) (t : Fin cfg0.N) (o : Fin 512) :
    (iblk m c 4 t : FVec Ideal S1x512 .f32) (ix2 (0 : Fin 1) o)
      = (m ((c : Thread nD τ).loc main_arg7) : FVec Ideal S512 .f32) (ix1 o) := by
  obtain ⟨-, -, -, -, -, -, -, -, h0, h1, -⟩ := idx_facts t
  unfold iblk
  rw [View.read_apply]
  show V m c main_v4 _ = _
  rw [V_shift]
  have e : ((cfg0.win 4).blk t).view.emb (ix2 (0 : Fin 1) o) = (ix2 (0 : Fin 1) o : S1x512.Idx) := funext fun a => Fin.ext (by
    match a with
    | ⟨0, _⟩ => show win0_4.index t (0 : Fin 2) * 1 + 1 * 0 = 0; rw [h0]
    | ⟨1, _⟩ => show win0_4.index t (1 : Fin 2) * 512 + 1 * o.val = o.val; rw [h1]; omega)
  rw [e]
  exact shapeCast_a_1a_apply (m ((c : Thread nD τ).loc main_arg7)) shapeCasts_S512_S1x512 0 o

/-! ## What a point writes back, the cover, the array after the run -/

/-- The layer's array of the argument arrays as launched. -/
abbrev result (c : Dev nD) : FVec Ideal S100000x512 .f32 :=
  layer (m ((c : Thread nD τ).loc main_arg0)) (m ((c : Thread nD τ).loc main_arg4)) (m ((c : Thread nD τ).loc main_arg5))
    (m ((c : Thread nD τ).loc main_arg6)) (m ((c : Thread nD τ).loc main_arg7))

/-- WHAT POINT t WRITES BACK is the block of the layer's array at rows 2000 t … 2000 t + 1999. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S2000x512) hz, View.ld_unit_zero (S := S512x512) hz, View.ld_unit_zero (S := S1x512) hz]
  obtain ⟨-, -, -, -, -, -, -, -, -, -, h0, h1⟩ := idx_facts t
  funext j
  obtain ⟨p, q, rfl⟩ : ∃ (p : Fin 2000) (q : Fin 512), j = ix2 p q := ⟨j 0, j 1, eq_ix2 j⟩
  have e : ((cfg0.win 5).blk t).view.emb (ix2 p q) = (ix2 (rowOf t p) q : S100000x512.Idx) := funext fun a => Fin.ext (by
    match a with
    | ⟨0, _⟩ => show win0_5.index t (0 : Fin 2) * 2000 + 1 * p.val = 2000 * t.val + p.val; rw [h0]; omega
    | ⟨1, _⟩ => show win0_5.index t (1 : Fin 2) * 512 + 1 * q.val = q.val; rw [h1]; omega)
  show k0_pay1 (iblk m c 0 t) (iblk m c 1 t) (iblk m c 2 t) (iblk m c 3 t) (iblk m c 4 t) (ix2 p q)
    = result m c (((cfg0.win 5).blk t).view.emb (ix2 p q))
  rw [e]
  refine (payload_at (iblk m c 0 t) (iblk m c 1 t) (iblk m c 2 t) (iblk m c 3 t) (iblk m c 4 t) p q).trans ?_
  simp only [input_at m c t, weights_at m c t, bias_at m c t, scale_at m c t, shift_at m c t]
  rfl

/-- An index of the array is in point t's block iff each coordinate is in the block's range on its axis. -/
theorem mem_blk (t : Fin cfg0.N) (i : S100000x512.Idx) :
    i ∈ ((cfg0.win 5).blk t).view.set ↔ ∀ a : Fin 2, win0_5.index t a * S2000x512.size a ≤ (i a).val
      ∧ (i a).val < win0_5.index t a * S2000x512.size a + S2000x512.size a := by
  show i ∈ ((View.whole main_v5).slice (win0_5.rect t)).set ↔ _
  rw [View.set_slice_whole, Rect.mem_set_unit]
  exact Iff.rfl

/-- Row r of the array is in the block of point r / 2000: the fifty blocks cover the array. -/
theorem cover (i : S100000x512.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 512 := (i 1).isLt
  let t : Fin cfg0.N := ⟨(i 0).val / 2000, by omega⟩
  obtain ⟨-, -, -, -, -, -, -, -, -, -, h0, h1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [h0]; omega
  | ⟨1, _⟩ => show win0_5.index t (1 : Fin 2) * 512 ≤ (i 1).val ∧ (i 1).val < win0_5.index t (1 : Fin 2) * 512 + 512; rw [h1]; omega

/-- THE ARRAY after the run is the layer's. -/
theorem final (c : Dev nD) : (dats m 0 c).arrAt 5 cfg0.N = result m c :=
  (dats m 0 c).arrAt_eq_of_cover 5 (result m c) (fun t _ => flushed_eq m c t) cover

/-- The kernel's run, read: the result array ends at the layer of the argument arrays, which end unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.lean ====
/-
  The certificate's claims, assembled.

  Both idealized programs compute one function of the argument arrays, the layer of Proof/Spec.lean: a dense layer on each
  node's 512 features, a normalisation of each resulting row over its 512 entries (mean, variance of the centred row,
  reciprocal square root of the shifted variance, scale and shift) and a leaky rectifier. The kernel computes it block by
  block, 2000 rows at a grid point, against the host's transpose of the weight matrix (Proof/Block.lean: one block;
  Proof/Whole.lean: the fifty blocks cover the array); the reference computes it with whole-array host operations
  (Proof/RefLayer.lean). On the extended reals a change of float format is the identity, the two matrix products are the
  same sums `∑ k, X (r, k) * W (o, k)`, the kernel's lane sums and the host's reductions are the same sums over the
  feature axis (the host's start from the literal zero), and division, reciprocal square root and comparison are one
  function on both sides; the literals 512, ε and the slope are the same words in both programs. No law used needs the
  inputs finite, so the precondition is never opened.

  The three frames are the generated ones (the reference's is its generated run with the result dropped); the ideal pass
  rewrote nothing in the kernel, so the preservation claim is `True`.
-/
import proofs.«128015_j5342939316926_2_alg».proof.Defs
import proofs.«128015_j5342939316926_2_alg».proof.Proof.Gen.Kernel
import proofs.«128015_j5342939316926_2_alg».proof.Proof.Gen.Kernel.Skeleton
import proofs.«128015_j5342939316926_2_alg».proof.Proof.Gen.Kernel.Launch
import proofs.«128015_j5342939316926_2_alg».proof.Proof.Gen.Kernel.Points
import proofs.«128015_j5342939316926_2_alg».proof.Proof.Gen.Kernel.Frame
import proofs.«128015_j5342939316926_2_alg».proof.Proof.Gen.KernelIdeal
import proofs.«128015_j5342939316926_2_alg».proof.Proof.Gen.KernelIdeal.Skeleton
import proofs.«128015_j5342939316926_2_alg».proof.Proof.Gen.KernelIdeal.Launch
import proofs.«128015_j5342939316926_2_alg».proof.Proof.Gen.KernelIdeal.Points
import proofs.«128015_j5342939316926_2_alg».proof.Proof.Gen.KernelIdeal.Frame
import proofs.«128015_j5342939316926_2_alg».proof.Proof.Gen.ReferenceIdeal
import proofs.«128015_j5342939316926_2_alg».proof.Proof.Gen.Pre_finite_inputs
import proofs.«128015_j5342939316926_2_alg».proof.Proof.Gen.KernelIdeal.Value
import proofs.«128015_j5342939316926_2_alg».proof.Proof.Gen.ReferenceIdeal.Run
import proofs.«128015_j5342939316926_2_alg».proof.Proof.Gen.ReferenceIdeal.Read
import proofs.«128015_j5342939316926_2_alg».proof.Proof.Spec
import proofs.«128015_j5342939316926_2_alg».proof.Proof.RefLayer
import proofs.«128015_j5342939316926_2_alg».proof.Proof.Block
import proofs.«128015_j5342939316926_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments the kernel's result array ends at the layer of its arguments
    (Proof/Whole.lean) and the reference's at the layer of its own (its generated run, read by Proof/RefLayer.lean): one
    array once the arguments are identified. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, -, -, -, a4, a5, a6, a7⟩ := hagree c
  rw [(h c).1, Cert.ReferenceIdeal.Read.val_main_v32_eq, Cert.ReferenceIdeal.RefLayer.result_eq, a0, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
